-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x1024 : Shape := ⟨3, ![1, 256, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel

variable [Facts]

def fn {F : FTy → Type} [FloatOps F] (main_arg0 : FVec F S1x256x1024 .f32) (main_arg1 : FVec F S1x256x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1x256x1024 .f32 := Host.absf main_arg1
  let main_cst_0 : FVec F S_ .f32 := constant S_ .f32 0x7F800000#32
  let main_v5 : FVec F S1x256x1024 .f32 := broadcastInDim S1x256x1024 ![] bcast_S_S1x256x1024 main_cst_0
  let main_v6 : IVec S1x256x1024 1 := cmpf .olt main_v4 main_v5
  let main_c_1 : IVec S_ 1 := constantI S_ 1 1#1
  let main_v7 : IVec S_ 1 := (fun x v => Host.reduce IntOp.andi x v reducesTo_S1x256x1024_S_d0_1_2 h_S_) main_v6 main_c_1
  let main_v8 : IVec S_ 1 := andi main_v3 main_v7
  main_v8
-- ==== Kernel.lean ====
abbrev S1x256x1024 : Shape := ⟨3, ![1, 256, 1024]⟩
abbrev S256x1024 : Shape := ⟨2, ![256, 1024]⟩
abbrev S1024x256 : Shape := ⟨2, ![1024, 256]⟩
abbrev S1024x1024 : Shape := ⟨2, ![1024, 1024]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S1x1 : Shape := ⟨2, ![1, 1]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S256x1024, .f32⟩
  | .hbm, ⟨3, _⟩ => ⟨S1024x256, .f32⟩
  | .hbm, ⟨4, _⟩ => ⟨S256x1024, .f32⟩
  | .hbm, ⟨5, _⟩ => ⟨S1024x256, .f32⟩
  | .hbm, ⟨6, _⟩ => ⟨S1024x1024, .f32⟩
  | .hbm, ⟨7, _⟩ => ⟨S1x1, .f32⟩
  | .hbm, ⟨8, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1024x1024, .f32⟩
  | .local _ .vmem, ⟨7, _⟩ => ⟨S1x1, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  shapeCasts_S1x256x1024_S256x1024 : S1x256x1024.ShapeCasts S256x1024
  transposes_S256x1024_S1024x256_1_0 : S256x1024.Transposes [1, 0] S1024x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  reduces_S1024x1024_S1024_2 : S1024x1024.Reduces [0] S1024
  shapeCasts_S1024_S1x1024 : S1024.ShapeCasts S1x1024
  broadcasts_S1x1024_S1024x1024 : S1x1024.Broadcasts S1024x1024
  reduces_S1x1024_S1 : S1x1024.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x256.size a
  hwx0_0 : ∀ i : grid0.Coords, EltTy.bits .f32 = 32 ∨ (Rect.block (s := S1024x256) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x256.size a
  hwx0_1 : ∀ i : grid0.Coords, EltTy.bits .f32 = 32 ∨ (Rect.block (s := S1024x256) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x1024.size a
  hwx0_2 : ∀ i : grid0.Coords, EltTy.bits .f32 = 32 ∨ (Rect.block (s := S1024x1024) S128x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .f32 = 32 ∨ (Rect.block (s := S1024x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)

variable [Facts₀]

abbrev win0_0 : Pipeline.Window sig grid0 :=
  Pipeline.Window.ofSpec (Memref.whole main_v1) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1x256x1024 : Shape := ⟨3, ![1, 256, 1024]⟩
abbrev S256x1024 : Shape := ⟨2, ![256, 1024]⟩
abbrev S1024x256 : Shape := ⟨2, ![1024, 256]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S256x1024, .f32⟩
  | .hbm, ⟨3, _⟩ => ⟨S1024x256, .f32⟩
  | .hbm, ⟨4, _⟩ => ⟨S256x1024, .f32⟩
  | .hbm, ⟨5, _⟩ => ⟨S1024x256, .f32⟩
  | .hbm, ⟨6, _⟩ => ⟨S1024x1x256, .f32⟩
  | .hbm, ⟨7, _⟩ => ⟨S1x1024x256, .f32⟩
  | .hbm, ⟨8, _⟩ => ⟨S1024x1024x256, .f32⟩
  | .hbm, ⟨9, _⟩ => ⟨S1024x1024x256, .f32⟩
  | .hbm, ⟨10, _⟩ => ⟨S1024x1024x256, .f32⟩
  | .hbm, ⟨11, _⟩ => ⟨S1024x1024x256, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024, .f32⟩
  | .hbm, ⟨26, _⟩ => ⟨S1024x1, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_cst_7 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]

class Facts₀ : Prop where
  shapeCasts_S1x256x1024_S256x1024 : S1x256x1024.ShapeCasts S256x1024
  transposes_S256x1024_S1024x256_1_0 : S256x1024.Transposes [1, 0] S1024x256
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  reducesTo_S1024x1024_S1024_d1 : S1024x1024.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  reducesTo_S1024x1024_S_d0_1 : S1024x1024.ReducesTo [0, 1] S_

variable [Facts₀]

class Facts : Prop extends Facts₀ where

variable [Facts]
-- ==== Proof.KernelRun.lean ====
/-
  The idealized kernel program's run with its RESULT named.

  The program is four segments: the host operations that lay the two inputs out as [1024, 256] matrices, the distance
  kernel over an 8 × 8 × 2 grid, the softmax-and-combine kernel at one grid point, and the host reshape of the [1, 1]
  result to a scalar. Every weakly fair execution terminates, and in the final memory the result buffer holds what the
  fold of the segments through the launch memory leaves there (`W4`), while both argument arrays are as launched.
  What `W4` holds at the result buffer is opened in the modules that import this one.
-/
import proofs.«118307_j8830452760775_2_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the final memory has the result buffer at
    the last segment boundary's contents and the two argument arrays as launched. -/
theorem run_named : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c)⟩)

end Cert.KernelIdeal.KVal

end
-- ==== Proof.Spec.lean ====
/-
  The function both programs compute, as one term over the extended reals.

  From two arrays X, Y of shape [1, 256, 1024] (feature k of token p at (0, k, p)):
    s p q     = −∑ₖ |X(0,k,p) − Y(0,k,q)|                       (negated L1 distance of token p of X to token q of Y)
    a p q     = exp(s p q − maxrow p) / ∑_q' exp(s p q' − maxrow p)   (softmax along a row)
    b p q     = exp(s p q − maxcol q) / ∑_p' exp(s p' q − maxcol q)   (softmax along a column)
    u         = (a + b) − a·b                                     (the soft union of the two alignments)
    result    = (∑_q ∑_p u p q · s p q) / (∑_q ∑_p u p q).
  Both maxima are taken from −∞ and then once more against −∞, as both programs spell them.

  The one algebraic law: the distance accumulated in two halves of 128 features, each half entering as
  "previous + (0 − half)" from 0, is the negated whole sum. Every half is a sum of absolute values, hence ≥ 0 and
  never −∞, which is what lets negation distribute over the sum on the extended reals.
-/
import Idealize.ShloMosaic.PureOps.Ideal
import Idealize.ShloMosaic.PureOps.Ideal.Laws
import Idealize.ShloMosaic.Lib.ValueIdx

noncomputable section

namespace Cert.Align

open Idealize.ShloMosaic Idealize.ShloMosaic.ValueIdx

/-- A 1024 × 1024 matrix of extended reals. -/
abbrev Mat : Type := Fin 1024 → Fin 1024 → EReal

/-- The input arrays' shape. -/
abbrev SIn : Shape := ⟨3, ![1, 256, 1024]⟩

/-- −∞ as the programs write it: the f32 word of negative infinity, never evaluated. -/
abbrev negInf : EReal := Ideal.ofBits .f32 0xFF800000#32

/-- The absolute value as the ideal instance defines it. -/
def absE (z : EReal) : EReal := max z (-z)

theorem absE_nonneg (z : EReal) : 0 ≤ absE z := by
  unfold absE
  rcases le_total 0 z with h | h
  · exact le_max_of_le_left h
  · exact le_max_of_le_right (EReal.neg_nonneg.mpr h)

/-- The negated L1 distance between token `p` of `X` and token `q` of `Y`. -/
def dist (X Y : SIn.Idx → EReal) : Mat :=
  fun p q => -(∑ k : Fin 256, absE (X (ix3 (0 : Fin 1) k p) - Y (ix3 (0 : Fin 1) k q)))

/-- Feature `k` of half `d` of the 256 features. -/
def feat (d : Fin 2) (k : Fin 128) : Fin 256 := ⟨128 * d.val + k.val, by have := d.isLt; have := k.isLt; omega⟩

/-- The L1 distance over one half of the features. -/
def half (X Y : SIn.Idx → EReal) (d : Fin 2) (p q : Fin 1024) : EReal :=
  ∑ k : Fin 128, absE (X (ix3 (0 : Fin 1) (feat d k) p) - Y (ix3 (0 : Fin 1) (feat d k) q))

theorem half_nonneg (X Y : SIn.Idx → EReal) (d : Fin 2) (p q : Fin 1024) : 0 ≤ half X Y d p q :=
  Finset.sum_nonneg fun _ _ => absE_nonneg _

/-- A sum over the 256 features is the sum over the first half plus the sum over the second. -/
theorem sum_halves (f : Fin 256 → EReal) :
    ∑ k : Fin 256, f k = ∑ k : Fin 128, f (feat 0 k) + ∑ k : Fin 128, f (feat 1 k) := by
  have h := Fin.sum_univ_add (M := EReal) (a := 128) (b := 128) f
  exact h.trans rfl

/-- THE LAW: accumulating "previous + (0 − half)" from 0 over the two halves gives the negated whole sum. -/
theorem dist_eq_halves (X Y : SIn.Idx → EReal) (p q : Fin 1024) :
    dist X Y p q = (0 + (0 - half X Y 0 p q)) + (0 - half X Y 1 p q) := by
  have h0 := half_nonneg X Y 0 p q
  have h1 := half_nonneg X Y 1 p q
  have hb0 : half X Y 0 p q ≠ ⊥ := ne_of_gt (lt_of_lt_of_le EReal.bot_lt_zero h0)
  have hb1 : half X Y 1 p q ≠ ⊥ := ne_of_gt (lt_of_lt_of_le EReal.bot_lt_zero h1)
  unfold dist
  rw [sum_halves]
  show -(half X Y 0 p q + half X Y 1 p q) = _
  rw [EReal.neg_add (Or.inl hb0) (Or.inr hb1), zero_sub, zero_sub, zero_add, sub_eq_add_neg]

/-- The maximum along row `p`, from −∞, and once more against −∞. -/
def rowMax (s : Mat) (p : Fin 1024) : EReal := max negInf ((Finset.univ : Finset (Fin 1024)).fold max negInf (fun q => s p q))

/-- The maximum along column `q`, from −∞, and once more against −∞. -/
def colMax (s : Mat) (q : Fin 1024) : EReal := max negInf ((Finset.univ : Finset (Fin 1024)).fold max negInf (fun p => s p q))

/-- The row softmax's numerator. -/
def rowW (s : Mat) : Mat := fun p q => Ideal.exp (s p q - rowMax s p)

/-- The column softmax's numerator. -/
def colW (s : Mat) : Mat := fun p q => Ideal.exp (s p q - colMax s q)

/-- The softmax along each row. -/
def rowSoft (s : Mat) : Mat := fun p q => Ideal.div (rowW s p q) (∑ q' : Fin 1024, rowW s p q')

/-- The softmax along each column. -/
def colSoft (s : Mat) : Mat := fun p q => Ideal.div (colW s p q) (∑ p' : Fin 1024, colW s p' q)

/-- The soft union of the two alignments. -/
def union (s : Mat) : Mat := fun p q => (rowSoft s p q + colSoft s p q) - rowSoft s p q * colSoft s p q

/-- The union-weighted mean of the scores. -/
def score (s : Mat) : EReal :=
  Ideal.div (∑ q : Fin 1024, ∑ p : Fin 1024, union s p q * s p q) (∑ q : Fin 1024, ∑ p : Fin 1024, union s p q)

/-- The whole result: the score of the distance matrix. -/
def result (X Y : SIn.Idx → EReal) : EReal := score (dist X Y)

end Cert.Align

end
-- ==== Proof.DistPayload.lean ====
/-
  The distance kernel's arithmetic at one entry of its output block.

  At a grid point the body holds a 128 × 128 block `x` of the first matrix (rows: tokens, columns: features), a
  128 × 128 block `y` of the second, and the output block's running contents `acc`. It forms the 128 × 128 × 128 array of
  differences x[r, k] − y[c, k] (each matrix given a unit axis and broadcast along it), takes absolute values, sums
  over the feature axis k, and stores acc + (0 − that sum). Entry (r, c) of what it stores is therefore
      acc[r, c] + (0 − ∑ₖ |x[r, k] − y[c, k]|).
  The block stored at a grid point where the accumulator is first reset is the zero block.
-/
import proofs.«118307_j8830452760775_2_alg».proof.Proof.Gen.KernelIdeal.Skeleton
import proofs.«118307_j8830452760775_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.DistPay

open Idealize.ShloMosaic Idealize.ShloMosaic.ValueIdx Cert.KernelIdeal Cert.KernelIdeal.Gen Cert.Align

/-- A matrix given a middle unit axis reads, at (r, u, k), its entry (r, k). -/
theorem cast_mid (x : FVec Ideal S128x128 .f32) (r : Fin 128) (u : Fin 1) (k : Fin 128) :
    shapeCast S128x1x128 x shapeCasts_S128x128_S128x1x128 (ix3 r u k) = x (ix2 r k) :=
  shapeCast_apply x _ _ _ (by
    have hu : u.val = 0 := by omega
    rw [Shape.rowMajor_val_three, Shape.rowMajor_val_two]
    show r.val * 128 + k.val = (r.val * 1 + u.val) * 128 + k.val
    rw [hu]; omega)

/-- Broadcast along the middle unit axis: entry (r, c, k) is entry (r, 0, k). -/
theorem bcast_mid (x : FVec Ideal S128x1x128 .f32) (r c k : Fin 128) :
    broadcastTo S128x128x128 x broadcasts_S128x1x128_S128x128x128 (ix3 r c k) = x (ix3 r (0 : Fin 1) k) := by
  refine broadcastTo_apply x _ (ix3 r c k) (ix3 r (0 : Fin 1) k) fun ax => ?_
  match ax with
  | ⟨0, _⟩ => show r.val = if (128 : Nat) = 1 then 0 else r.val; rw [if_neg (by decide)]
  | ⟨1, _⟩ => show 0 = if (1 : Nat) = 1 then 0 else c.val; rw [if_pos rfl]
  | ⟨2, _⟩ => show k.val = if (128 : Nat) = 1 then 0 else k.val; rw [if_neg (by decide)]

/-- Broadcast along the leading unit axis: entry (r, c, k) is entry (0, c, k). -/
theorem bcast_lead (y : FVec Ideal S1x128x128 .f32) (r c k : Fin 128) :
    broadcastTo S128x128x128 y broadcasts_S1x128x128_S128x128x128 (ix3 r c k) = y (ix3 (0 : Fin 1) c k) := by
  refine broadcastTo_apply y _ (ix3 r c k) (ix3 (0 : Fin 1) c k) fun ax => ?_
  match ax with
  | ⟨0, _⟩ => show 0 = if (1 : Nat) = 1 then 0 else r.val; rw [if_pos rfl]
  | ⟨1, _⟩ => show c.val = if (128 : Nat) = 1 then 0 else c.val; rw [if_neg (by decide)]
  | ⟨2, _⟩ => show k.val = if (128 : Nat) = 1 then 0 else k.val; rw [if_neg (by decide)]

/-- The index the feature-axis reduction inserts at (r, c) is (r, c, k). -/
theorem lift_feat (r c : Fin 128) (k : Fin (S128x128x128.size 2)) :
    reduces_S128x128x128_S128x128.lift (ix2 r c) k = ix3 r c (⟨k.val, k.isLt⟩ : Fin 128) := by
  funext a; apply Fin.ext
  match a with
  | ⟨0, _⟩ => rfl
  | ⟨1, _⟩ => rfl
  | ⟨2, _⟩ => rfl

/-- Entry (r, c) of what the body stores. -/
theorem pay2_apply (x y acc : Vec Ideal S128x128 .f32) (r c : Fin 128) :
    k0_pay2 (F := Ideal) x y acc (ix2 r c)
      = acc (ix2 r c) + (0 - ∑ k : Fin 128, absE (x (ix2 r k) - y (ix2 c k))) := by
  unfold k0_pay2
  simp only [shapeCast_self]
  show acc (ix2 r c) + (Ideal.ofBits .f32 0x00000000#32
      - multiReduction (F := Ideal) .add [2] S128x128 _ 0x00000000#32 reduces_S128x128x128_S128x128 _ _ (ix2 r c)) = _
  rw [Ideal.ofBits_zero_f32]
  refine congrArg (fun z => acc (ix2 r c) + (0 - z)) ?_
  refine (Ideal.multiReduction_add_single _ _ _ _ _ _).trans ?_
  refine Finset.sum_congr rfl fun k _ => ?_
  rw [lift_feat]
  show absE (broadcastTo S128x128x128 (shapeCast S128x1x128 x shapeCasts_S128x128_S128x1x128) broadcasts_S128x1x128_S128x128x128 (ix3 r c _)
      - broadcastTo S128x128x128 (shapeCast S1x128x128 y shapeCasts_S128x128_S1x128x128) broadcasts_S1x128x128_S128x128x128 (ix3 r c _)) = _
  rw [bcast_mid, bcast_lead, cast_mid, shapeCast_ab_1ab_apply]
  rfl

/-- The block stored where the accumulator is reset is zero everywhere. -/
theorem pay1_apply (j : S128x128.Idx) : k0_pay1 (F := Ideal) j = 0 := by
  show Ideal.ofBits .f32 0x00000000#32 = 0
  exact Ideal.ofBits_zero_f32

end Cert.KernelIdeal.DistPay

end
-- ==== Proof.DistBlocks.lean ====
/-
  The distance kernel's output array after its run.

  The grid is 8 × 8 × 2: point t = (ni·8 + mi)·2 + di works on rows 128·ni … of the first matrix, rows 128·mi … of the
  second, and features 128·di …; the output block (ni, mi) stays in its staging buffer over the two values of di and is
  written back after the second. At di = 0 the body first stores the zero block and then stores
  "zero + (0 − first half)"; at di = 1 it stores "previous + (0 − second half)". So the block written back at an odd
  point is the body's arithmetic applied twice, and entry (r, c) of it is
      (0 + (0 − half₀)) + (0 − half₁)  =  −∑ₖ |x[128·ni + r, k] − y[128·mi + c, k]|
  by the law of the two halves. The 64 written-back blocks tile the 1024 × 1024 array, so the array ends holding the
  negated L1 distance matrix of the two input arrays.
-/
import proofs.«118307_j8830452760775_2_alg».proof.Proof.Gen.KernelIdeal.Frame
import proofs.«118307_j8830452760775_2_alg».proof.Proof.DistPayload
import Idealize.ShloMosaic.Lib.Pipeline.Value
import Idealize.ShloMosaic.Lib.Tactic

set_option maxRecDepth 16384

noncomputable section

namespace Cert.KernelIdeal.DistBlk

open Idealize.ShloMosaic Idealize.ShloMosaic.TcCoe Idealize.SL.Sem Idealize.ShloMosaic.ValueIdx
open Idealize.ShloMosaic.Pipeline (Dat)
open Cert.KernelIdeal Cert.KernelIdeal.Gen Cert.Align

theorem hz : (![0, 0] : Fin 2 → Nat) = fun _ => 0 := funext fun a => by fin_cases a <;> rfl

section AnyValues
variable {F : FTy → Type} [FloatOps F]

/-- At a point that does not reset, the body leaves its arithmetic of the two input blocks and the running contents. -/
theorem out_B (c : Dev nD) (i : grid0.Coords) (a3 : Memref sig .tc .vmem S128x128 .f32) (h3 : a3.IsWhole)
    (a4 : Memref sig .tc .vmem S128x128 .f32) (h4 : a4.IsWhole) (a5 : Memref sig .tc .vmem S128x128 .f32) (h5 : a5.IsWhole)
    (hc : ¬cond0_0 i) (x0 x1 xo : Vec F S128x128 .f32) :
    out0_B_2 c i a3 h3 a4 h4 a5 h5 hc x0 x1 xo = k0_pay2 x0 x1 xo := by
  unfold out0_B_2
  rw [View.read_writes_eq_canon _ _ _ (cover0_B_2 c i a3 h3 a4 h4 a5 h5 hc x0 x1 xo)]
  unfold kernelRun0_B
  dsimp only
  rw [View.canon_unit_zero hz]
  simp only [View.readAt_eq_ld, h3.read_unread, h4.read_unread, h5.read_unread, View.ld_unit_zero (S := S128x128) hz]

/-- At a point that resets, the body leaves its arithmetic of the two input blocks and the zero block. -/
theorem out_A (c : Dev nD) (i : grid0.Coords) (a3 : Memref sig .tc .vmem S128x128 .f32) (h3 : a3.IsWhole)
    (a4 : Memref sig .tc .vmem S128x128 .f32) (h4 : a4.IsWhole) (a5 : Memref sig .tc .vmem S128x128 .f32) (h5 : a5.IsWhole)
    (hc : cond0_0 i) (x0 x1 : Vec F S128x128 .f32) :
    out0_A_2 c i a3 h3 a4 h4 a5 h5 hc x0 x1 = k0_pay2 x0 x1 (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S128x128) hz, View.readCov_unit_zero (S := S128x128) _ hz]
  simp only [View.readAt_eq_ld, h3.read_unread, h4.read_unread, View.ld_unit_zero (S := S128x128) hz]

/-- What the output's staging buffer holds after an odd point: the body's arithmetic at that point over what the even
    point before it left, which is the body's arithmetic there over the zero block. -/
theorem outs_odd (V : (c : Dev nD) → (b : Ref sig .tc) → Buf (Elt F) ((c : Thread nD τ).loc b)) (c : Dev nD)
    (t : Fin cfg0.N) (h1 : t.val % 2 = 1) :
    outsAt0 V c t.val t.isLt
      = k0_pay2 (iblk0 V c 0 t) (iblk0 V c 1 t)
          (k0_pay2 (iblk0 V c 0 ⟨t.val - 1, Nat.lt_of_le_of_lt (Nat.sub_le _ _) t.isLt⟩)
            (iblk0 V c 1 ⟨t.val - 1, Nat.lt_of_le_of_lt (Nat.sub_le _ _) t.isLt⟩) (k0_pay1 (F := F))) := by
  have hB : ¬t.val % 2 = 0 := by omega
  have hA : (⟨t.val - 1, Nat.lt_of_le_of_lt (Nat.sub_le _ _) t.isLt⟩ : Fin cfg0.N).val % 2 = 0 := by
    show (t.val - 1) % 2 = 0; omega
  refine (outsAt0_B V c t hB).trans ((out_B ..).trans ?_)
  exact congrArg (k0_pay2 (iblk0 V c 0 t) (iblk0 V c 1 t))
    ((outsAt0_A V c ⟨t.val - 1, Nat.lt_of_le_of_lt (Nat.sub_le _ _) t.isLt⟩ hA).trans (out_A ..))

end AnyValues

/-! ## At the extended reals -/

section AtIdeal

variable (m : (ℓ : Loc nD τ sig) → Buf (Elt Ideal) ℓ) (ρ : Dev nD → PrngReg)

/-- The block indices of the three windows at grid point t = (ni·8 + mi)·2 + di, decided over the grid. -/
theorem idx_facts : ∀ t : Fin cfg0.N,
    win0_0.index t (0 : Fin 2) = t.val / 16 ∧ win0_0.index t (1 : Fin 2) = t.val % 2
    ∧ win0_1.index t (0 : Fin 2) = t.val / 2 % 8 ∧ win0_1.index t (1 : Fin 2) = t.val % 2
    ∧ win0_2.index t (0 : Fin 2) = t.val / 16 ∧ win0_2.index t (1 : Fin 2) = t.val / 2 % 8 :=
  (by decide +kernel : ∀ t : Fin grid0.N, _)

/-- The first matrix as the kernel finds it: row n, column d is feature d of token n of the first input. -/
theorem entry_x (c : Dev nD) (n : Fin 1024) (d : Fin 256) :
    V1 m ρ c main_v1 (ix2 n d) = m ((c : Thread nD τ).loc main_arg0) (ix3 (0 : Fin 1) d n) := by
  have e : (V1 m ρ c main_v1 : S1024x256.Idx → EReal)
      = transpose S1024x256 [1, 0] (shapeCast S256x1024 (m ((c : Thread nD τ).loc main_arg0)) shapeCasts_S1x256x1024_S256x1024)
          transposes_S256x1024_S1024x256_1_0 := by
    dsimp only [V1, W1, W0, hostOps0]; after_results; rfl
  rw [e, transpose_ix2_apply, shapeCast_1ab_ab_apply]

/-- The second matrix likewise, of the second input. -/
theorem entry_y (c : Dev nD) (n : Fin 1024) (d : Fin 256) :
    V1 m ρ c main_v3 (ix2 n d) = m ((c : Thread nD τ).loc main_arg1) (ix3 (0 : Fin 1) d n) := by
  have e : (V1 m ρ c main_v3 : S1024x256.Idx → EReal)
      = transpose S1024x256 [1, 0] (shapeCast S256x1024 (m ((c : Thread nD τ).loc main_arg1)) shapeCasts_S1x256x1024_S256x1024)
          transposes_S256x1024_S1024x256_1_0 := by
    dsimp only [V1, W1, W0, hostOps0]; after_results; rfl
  rw [e, transpose_ix2_apply, shapeCast_1ab_ab_apply]

/-- Entry (r, k) of the first window's block at point t is entry (128·ni + r, 128·di + k) of the first matrix. -/
theorem blk_x (V : (c : Dev nD) → (b : Ref sig .tc) → Buf (Elt Ideal) ((c : Thread nD τ).loc b)) (c : Dev nD)
    (t : Fin cfg0.N) (r k : Fin 128) (n : Fin 1024) (d : Fin 256)
    (hn : n.val = t.val / 16 * 128 + r.val) (hd : d.val = t.val % 2 * 128 + k.val) :
    iblk0 V c 0 t (ix2 r k) = V c main_v1 (ix2 n d) := by
  obtain ⟨e0, e1, -⟩ := idx_facts t
  unfold iblk0
  rw [View.read_apply]
  show V c main_v1 _ = V c main_v1 _
  congr 1
  funext a; apply Fin.ext
  match a with
  | ⟨0, _⟩ => show win0_0.index t (0 : Fin 2) * 128 + 1 * r.val = n.val; rw [e0, hn]; omega
  | ⟨1, _⟩ => show win0_0.index t (1 : Fin 2) * 128 + 1 * k.val = d.val; rw [e1, hd]; omega

/-- Entry (r, k) of the second window's block at point t is entry (128·mi + r, 128·di + k) of the second matrix. -/
theorem blk_y (V : (c : Dev nD) → (b : Ref sig .tc) → Buf (Elt Ideal) ((c : Thread nD τ).loc b)) (c : Dev nD)
    (t : Fin cfg0.N) (r k : Fin 128) (n : Fin 1024) (d : Fin 256)
    (hn : n.val = t.val / 2 % 8 * 128 + r.val) (hd : d.val = t.val % 2 * 128 + k.val) :
    iblk0 V c 1 t (ix2 r k) = V c main_v3 (ix2 n d) := by
  obtain ⟨-, -, e2, e3, -⟩ := idx_facts t
  unfold iblk0
  rw [View.read_apply]
  show V c main_v3 _ = V c main_v3 _
  congr 1
  funext a; apply Fin.ext
  match a with
  | ⟨0, _⟩ => show win0_1.index t (0 : Fin 2) * 128 + 1 * r.val = n.val; rw [e2, hn]; omega
  | ⟨1, _⟩ => show win0_1.index t (1 : Fin 2) * 128 + 1 * k.val = d.val; rw [e3, hd]; omega

/-- The feature sum the body takes at point t, at entry (r, cc) of its block, is the half of the L1 distance over the
    point's half of the features, between the tokens the block's entry stands for. -/
theorem blk_half (c : Dev nD) (t : Fin cfg0.N) (dh : Fin 2) (hdh : t.val % 2 = dh.val) (r cc : Fin 128) (p q : Fin 1024)
    (hp : p.val = t.val / 16 * 128 + r.val) (hq : q.val = t.val / 2 % 8 * 128 + cc.val)
    (xb yb : Vec Ideal S128x128 .f32) (hx : xb = iblk0 (V1 m ρ) c 0 t) (hy : yb = iblk0 (V1 m ρ) c 1 t) :
    ∑ k : Fin 128, absE (xb (ix2 r k) - yb (ix2 cc k))
      = half (m ((c : Thread nD τ).loc main_arg0)) (m ((c : Thread nD τ).loc main_arg1)) dh p q := by
  subst hx hy
  unfold half
  refine Finset.sum_congr rfl fun k _ => ?_
  have hd : (feat dh k).val = t.val % 2 * 128 + k.val := by rw [hdh]; show 128 * dh.val + k.val = _; omega
  rw [blk_x (V1 m ρ) c t r k p (feat dh k) hp hd, blk_y (V1 m ρ) c t cc k q (feat dh k) hq hd, entry_x, entry_y]

/-- The negated L1 distance matrix of the two inputs, as contents of the first kernel's result array. -/
def distArr (c : Dev nD) : S1024x1024.Idx → EReal :=
  fun i => Cert.Align.dist (m ((c : Thread nD τ).loc main_arg0)) (m ((c : Thread nD τ).loc main_arg1)) (i 0) (i 1)

/-- What an odd point writes back is its block of the distance matrix. -/
theorem flushed_eq (c : Dev nD) (t : Fin cfg0.N) (hf : (cfg0.win 2).flush t = true) :
    (dat0 (V1 m ρ) c).flushed 2 t = ((cfg0.win 2).blk t).view.read (Elt Ideal) (distArr m c) := by
  have h1 : t.val % 2 = 1 := (flush0_2 t).mp hf
  have hN : t.val < 128 := lt_of_lt_of_eq t.isLt N_0
  obtain ⟨-, -, -, -, e4, e5⟩ := idx_facts t
  show (cfg0.win 2).cut (grid0.coords t) ((dat0 (V1 m ρ) c).after 2 t) = _
  rw [after0_2, outs_odd (V1 m ρ) c t h1]
  funext j
  obtain ⟨r, cc, rfl⟩ : ∃ (r cc : Fin 128), j = ix2 r cc := ⟨j 0, j 1, eq_ix2 j⟩
  show k0_pay2 (F := Ideal) (iblk0 (V1 m ρ) c 0 t) (iblk0 (V1 m ρ) c 1 t)
      (k0_pay2 (iblk0 (V1 m ρ) c 0 ⟨t.val - 1, Nat.lt_of_le_of_lt (Nat.sub_le _ _) t.isLt⟩)
        (iblk0 (V1 m ρ) c 1 ⟨t.val - 1, Nat.lt_of_le_of_lt (Nat.sub_le _ _) t.isLt⟩) (k0_pay1 (F := Ideal))) (ix2 r cc)
    = Cert.Align.dist (m ((c : Thread nD τ).loc main_arg0)) (m ((c : Thread nD τ).loc main_arg1))
        ((((cfg0.win 2).blk t).view.emb (ix2 r cc)) 0) ((((cfg0.win 2).blk t).view.emb (ix2 r cc)) 1)
  have hp : ((((cfg0.win 2).blk t).view.emb (ix2 r cc)) 0).val = t.val / 16 * 128 + r.val := by
    show win0_2.index t (0 : Fin 2) * 128 + 1 * r.val = _; rw [e4]; omega
  have hq : ((((cfg0.win 2).blk t).view.emb (ix2 r cc)) 1).val = t.val / 2 % 8 * 128 + cc.val := by
    show win0_2.index t (1 : Fin 2) * 128 + 1 * cc.val = _; rw [e5]; omega
  have hp' : ((((cfg0.win 2).blk t).view.emb (ix2 r cc)) 0).val = (t.val - 1) / 16 * 128 + r.val := by rw [hp]; omega
  have hq' : ((((cfg0.win 2).blk t).view.emb (ix2 r cc)) 1).val = (t.val - 1) / 2 % 8 * 128 + cc.val := by rw [hq]; omega
  rw [DistPay.pay2_apply, DistPay.pay2_apply, DistPay.pay1_apply,
    blk_half m ρ c t 1 (by rw [h1]; rfl) r cc _ _ hp hq _ _ rfl rfl,
    blk_half m ρ c ⟨t.val - 1, Nat.lt_of_le_of_lt (Nat.sub_le _ _) t.isLt⟩ 0 (by show (t.val - 1) % 2 = 0; omega) r cc _ _ hp' hq' _ _ rfl rfl]
  exact (dist_eq_halves _ _ _ _).symm

/-- An index of the array is in point t's block iff each coordinate is in the block's range. -/
theorem mem_blk (t : Fin cfg0.N) (i : S1024x1024.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v4).slice (win0_2.rect t)).set ↔ _
  rw [View.set_slice_whole, Rect.mem_set_unit]
  exact Iff.rfl

/-- Every entry (i₀, i₁) lies in the block written back at the odd point (i₀/128 · 8 + i₁/128) · 2 + 1. -/
theorem cover (i : S1024x1024.Idx) :
    ∃ t : Fin cfg0.N, (cfg0.win 2).flush t = true ∧ i ∈ ((cfg0.win 2).blk t).view.set := by
  have h0 : (i 0).val < 1024 := (i 0).isLt
  have h1 : (i 1).val < 1024 := (i 1).isLt
  have hlt : ((i 0).val / 128 * 8 + (i 1).val / 128) * 2 + 1 < cfg0.N := by
    show _ < grid0.N; rw [N_0]; omega
  obtain ⟨-, -, -, -, e4, e5⟩ := idx_facts ⟨((i 0).val / 128 * 8 + (i 1).val / 128) * 2 + 1, hlt⟩
  refine ⟨⟨((i 0).val / 128 * 8 + (i 1).val / 128) * 2 + 1, hlt⟩, (flush0_2 _).mpr (by show (((i 0).val / 128 * 8 + (i 1).val / 128) * 2 + 1) % 2 = 1; omega), ?_⟩
  rw [mem_blk]
  intro a
  match a with
  | ⟨0, _⟩ =>
    show win0_2.index _ (0 : Fin 2) * 128 ≤ (i 0).val ∧ (i 0).val < win0_2.index _ (0 : Fin 2) * 128 + 128
    rw [e4]; show (((i 0).val / 128 * 8 + (i 1).val / 128) * 2 + 1) / 16 * 128 ≤ (i 0).val ∧ (i 0).val < (((i 0).val / 128 * 8 + (i 1).val / 128) * 2 + 1) / 16 * 128 + 128
    omega
  | ⟨1, _⟩ =>
    show win0_2.index _ (1 : Fin 2) * 128 ≤ (i 1).val ∧ (i 1).val < win0_2.index _ (1 : Fin 2) * 128 + 128
    rw [e5]; show (((i 0).val / 128 * 8 + (i 1).val / 128) * 2 + 1) / 2 % 8 * 128 ≤ (i 1).val ∧ (i 1).val < (((i 0).val / 128 * 8 + (i 1).val / 128) * 2 + 1) / 2 % 8 * 128 + 128
    omega

/-- The first kernel's result array ends holding the negated L1 distance matrix of the two inputs. -/
theorem final (c : Dev nD) : (dat0 (V1 m ρ) c).arrAt 2 cfg0.N = distArr m c :=
  (dat0 (V1 m ρ) c).arrAt_eq_of_cover 2 (distArr m c) (flushed_eq m ρ c) cover

end AtIdeal

end Cert.KernelIdeal.DistBlk

end
-- ==== Proof.Tail.lean ====
/-
  The second kernel and the closing reshape.

  The second kernel runs at ONE grid point: its input window's block is the whole 1024 × 1024 array the first kernel left,
  its output window's block the whole [1, 1] result array, and its body stores its arithmetic of the loaded matrix once.
  So the [1, 1] array ends holding that arithmetic of the first kernel's result array, and the program's result — the
  host reshape of it to a scalar — is its one entry.
-/
import proofs.«118307_j8830452760775_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Tail

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

/-- The body's one store, over the whole loaded matrix, is its arithmetic of that matrix. -/
theorem out1_eq (x0 : Vec F S1024x1024 .f32) : out1_1 x0 = k1_pay1 x0 := by
  unfold out1_1
  rw [View.canon_unit_zero hz]
  simp only [View.ld_unit_zero (S := S1024x1024) hz]

/-- The input window's one block is the whole array. -/
theorem iblk1_whole (V : (c : Dev nD) → (b : Ref sig .tc) → Buf (Elt F) ((c : Thread nD τ).loc b)) (c : Dev nD)
    (t : Fin cfg1.N) : iblk1 V c 0 t = V c main_v4 := by
  obtain rfl := fin_N1 t
  unfold iblk1
  have hz' : (fun a => win1_0.index t1_0 a * main_v4.ty.shape.size a) = fun _ => 0 :=
    funext fun a => by fin_cases a <;> decide
  exact Memref.read_access_unit_zero (Elt F) main_v4 hz' (fun a => by rw [congrFun hz' a]; simp) (V c main_v4)

/-- The [1, 1] result array after the second kernel: the body's arithmetic of the array it was given. -/
theorem final1 (V : (c : Dev nD) → (b : Ref sig .tc) → Buf (Elt F) ((c : Thread nD τ).loc b)) (c : Dev nD) :
    (dat1 V c).arrAt 1 cfg1.N = k1_pay1 (V c main_v4) := by
  refine (dat1 V c).arrAt_eq_of_cover 1 (k1_pay1 (V c main_v4)) (fun t _ => ?_) (fun i => ⟨t1_0, flush1_1 t1_0, ?_⟩)
  · obtain rfl := fin_N1 t
    show (cfg1.win 1).cut (grid1.coords t1_0) ((dat1 V c).after 1 t1_0) = _
    rw [after1_1, out1_eq, iblk1_whole]
    have hz' : (fun a => win1_1.index t1_0 a * main_v5.ty.shape.size a) = fun _ => 0 :=
      funext fun a => by fin_cases a <;> decide
    exact (Memref.read_access_unit_zero (Elt F) main_v5 hz' (fun a => by rw [congrFun hz' a]; simp) _).symm
  · show i ∈ ((View.whole main_v5).slice (win1_1.rect t1_0)).set
    rw [View.set_slice_whole, Rect.mem_set_unit]
    intro a
    have h0 : (i 0 : Nat) < 1 := (i 0).isLt
    have h1 : (i 1 : Nat) < 1 := (i 1).isLt
    match a with
    | ⟨0, _⟩ =>
      show win1_1.index t1_0 0 * win1_1.size 0 ≤ (i 0 : Nat) ∧ (i 0 : Nat) < win1_1.index t1_0 0 * win1_1.size 0 + win1_1.xsize (grid1.coords t1_0) 0
      rw [show win1_1.index t1_0 0 * win1_1.size 0 = 0 from by decide +kernel, show win1_1.xsize (grid1.coords t1_0) 0 = 1 from by decide +kernel]; omega
    | ⟨1, _⟩ =>
      show win1_1.index t1_0 1 * win1_1.size 1 ≤ (i 1 : Nat) ∧ (i 1 : Nat) < win1_1.index t1_0 1 * win1_1.size 1 + win1_1.xsize (grid1.coords t1_0) 1
      rw [show win1_1.index t1_0 1 * win1_1.size 1 = 0 from by decide +kernel, show win1_1.xsize (grid1.coords t1_0) 1 = 1 from by decide +kernel]; omega

variable (m : (ℓ : Loc nD τ sig) → Buf (Elt F) ℓ) (ρ : Dev nD → PrngReg)

/-- The result buffer at the last segment boundary: the second kernel's arithmetic of the first kernel's result array,
    reshaped to a scalar. -/
theorem result_buf (c : Dev nD) : W4 m ρ c (Proc.devRef .tc main_v6)
    = shapeCast S_ (k1_pay1 ((dat0 (V1 m ρ) c).arrAt 2 cfg0.N)) shapeCasts_S1x1_S_ := by
  have e4 : W4 m ρ c (Proc.devRef .tc main_v6) = shapeCast S_ (W3 m ρ c (Proc.devRef .tc main_v5)) shapeCasts_S1x1_S_ := by
    dsimp only [W4, hostOps2]; after_results; rfl
  have e3 : W3 m ρ c (Proc.devRef .tc main_v5) = (dat1 (V2 m ρ) c).arrAt 1 cfg1.N := W3_arr m ρ c 1
  have e2 : V2 m ρ c main_v4 = (dat0 (V1 m ρ) c).arrAt 2 cfg0.N := W2_arr m ρ c 2
  rw [e4, e3, final1, e2]

/-- A [1, 1] array reshaped to a scalar reads its one entry. -/
theorem scalar_apply {α : Type} (v : S1x1.Idx → α) (i : S_.Idx) :
    shapeCast S_ v shapeCasts_S1x1_S_ i = v (ix2 (0 : Fin 1) (0 : Fin 1)) :=
  shapeCast_apply v _ i (ix2 (0 : Fin 1) (0 : Fin 1)) (by
    have h1 : (S1x1.rowMajor (ix2 (0 : Fin 1) (0 : Fin 1))).val < 1 := (S1x1.rowMajor _).isLt
    have h2 : (S_.rowMajor i).val < 1 := (S_.rowMajor _).isLt
    omega)

end Cert.KernelIdeal.Tail

end
-- ==== Proof.Combine.lean ====
import proofs.«118307_j8830452760775_2_alg».proof.Proof.Gen.KernelIdeal.Skeleton
import proofs.«118307_j8830452760775_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Combine

open Idealize.ShloMosaic Idealize.ShloMosaic.ValueIdx Cert.KernelIdeal Cert.KernelIdeal.Gen Cert.Align

/-! ## Indices: the reduced coordinate put back -/

/-- Row `p` with the reduced column `k` put back is the index (p, k). -/
theorem lift_row (h : S1024x1024.Reduces [1] S1024) (p : Fin 1024) (k : Fin (S1024x1024.size 1)) :
    h.lift (ix1 p) k = ix2 p (⟨k.val, k.isLt⟩ : Fin 1024) := by
  funext c; apply Fin.ext
  match c with
  | ⟨0, _⟩ => rfl
  | ⟨1, _⟩ => rfl

/-- Column `q` with the reduced row `k` put back is the index (k, q). -/
theorem lift_col (h : S1024x1024.Reduces [0] S1024) (q : Fin 1024) (k : Fin (S1024x1024.size 0)) :
    h.lift (ix1 q) k = ix2 (⟨k.val, k.isLt⟩ : Fin 1024) q := by
  funext c; apply Fin.ext
  match c with
  | ⟨0, _⟩ => rfl
  | ⟨1, _⟩ => rfl

/-- The one reduced index of a single row with column `k` put back is (0, k). -/
theorem lift_one (h : S1x1024.Reduces [1] S1) (u : Fin 1) (k : Fin (S1x1024.size 1)) :
    h.lift (ix1 u) k = ix2 u (⟨k.val, k.isLt⟩ : Fin 1024) := by
  funext c; apply Fin.ext
  match c with
  | ⟨0, _⟩ => rfl
  | ⟨1, _⟩ => rfl

/-! ## Keeping a reduced axis: a vector read as a column or as a row of a matrix -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector kept as a column and spread over the columns reads, at (p, q), the vector at `p`. -/
theorem keepCol_apply (w : S1024.Idx → α) (h1 : S1024.ShapeCasts S1024x1) (h2 : S1024x1.Broadcasts S1024x1024)
    (p q : Fin 1024) : broadcastTo S1024x1024 (shapeCast S1024x1 w h1) h2 (ix2 p q) = w (ix1 p) :=
  (broadcastTo_a1_ab_apply _ h2 p q).trans (shapeCast_a_a1_apply w h1 p 0)

/-- A vector kept as a row and spread over the rows reads, at (p, q), the vector at `q`. -/
theorem keepRow_apply (w : S1024.Idx → α) (h1 : S1024.ShapeCasts S1x1024) (h2 : S1x1024.Broadcasts S1024x1024)
    (p q : Fin 1024) : broadcastTo S1024x1024 (shapeCast S1x1024 w h1) h2 (ix2 p q) = w (ix1 q) :=
  (broadcastTo_1b_ab_apply _ h2 p q).trans (shapeCast_a_1a_apply w h1 0 q)

end Layout

/-! ## The reductions read at an index -/

/-- A block's elements by coordinates, as a matrix of extended reals. -/
abbrev matOf (v : FVec Ideal S1024x1024 .f32) : Mat := fun p q => v (ix2 p q)

/-- The maximum over the columns from −∞, read at row `p`: the fold of `max` along the row. -/
theorem kerMax_row (v : FVec Ideal S1024x1024 .f32) (h : S1024x1024.Reduces [1] S1024) (hφ : FKind.Formats .f32)
    (hacc : (0xFF800000#32 : BitVec 32) = FKind.maximumf.neutral .f32 hφ) (p : Fin 1024) :
    multiReduction (F := Ideal) .maximumf [1] S1024 v 0xFF800000#32 h hφ hacc (ix1 p)
      = (Finset.univ : Finset (Fin 1024)).fold max negInf (fun q => v (ix2 p q)) := by
  refine (Ideal.multiReduction_maximumf_single v _ h hφ hacc (ix1 p)).trans ?_
  have hf : (v ∘ h.lift (ix1 p)) = fun k : Fin 1024 => v (ix2 p k) := funext fun k => congrArg v (lift_row h p k)
  exact congrArg (fun f => Finset.fold max negInf f (Finset.univ : Finset (Fin 1024))) hf

/-- … and once more against the −∞ splat: the specification's row maximum. -/
theorem rowMax_apply (v : FVec Ideal S1024x1024 .f32) (h : S1024x1024.Reduces [1] S1024) (hφ : FKind.Formats .f32)
    (hacc : (0xFF800000#32 : BitVec 32) = FKind.maximumf.neutral .f32 hφ) (p : Fin 1024) :
    maximumf (broadcast S1024 (Scalar.ofBits (F := Ideal) .f32 0xFF800000#32))
      (multiReduction (F := Ideal) .maximumf [1] S1024 v 0xFF800000#32 h hφ hacc) (ix1 p) = rowMax (matOf v) p := by
  unfold rowMax
  exact (maximumf_apply _ _ (ix1 p)).trans
    (congrArg₂ max (Ideal.ofBits_def (φ := .f32) 0xFF800000#32) (kerMax_row v h hφ hacc p))

/-- The maximum over the rows from −∞, read at column `q`: the fold of `max` along the column. -/
theorem kerMax_col (v : FVec Ideal S1024x1024 .f32) (h : S1024x1024.Reduces [0] S1024) (hφ : FKind.Formats .f32)
    (hacc : (0xFF800000#32 : BitVec 32) = FKind.maximumf.neutral .f32 hφ) (q : Fin 1024) :
    multiReduction (F := Ideal) .maximumf [0] S1024 v 0xFF800000#32 h hφ hacc (ix1 q)
      = (Finset.univ : Finset (Fin 1024)).fold max negInf (fun p => v (ix2 p q)) := by
  refine (Ideal.multiReduction_maximumf_single v _ h hφ hacc (ix1 q)).trans ?_
  have hf : (v ∘ h.lift (ix1 q)) = fun k : Fin 1024 => v (ix2 k q) := funext fun k => congrArg v (lift_col h q k)
  exact congrArg (fun f => Finset.fold max negInf f (Finset.univ : Finset (Fin 1024))) hf

/-- … and once more against the −∞ splat: the specification's column maximum. -/
theorem colMax_apply (v : FVec Ideal S1024x1024 .f32) (h : S1024x1024.Reduces [0] S1024) (hφ : FKind.Formats .f32)
    (hacc : (0xFF800000#32 : BitVec 32) = FKind.maximumf.neutral .f32 hφ) (q : Fin 1024) :
    maximumf (broadcast S1024 (Scalar.ofBits (F := Ideal) .f32 0xFF800000#32))
      (multiReduction (F := Ideal) .maximumf [0] S1024 v 0xFF800000#32 h hφ hacc) (ix1 q) = colMax (matOf v) q := by
  unfold colMax
  exact (maximumf_apply _ _ (ix1 q)).trans
    (congrArg₂ max (Ideal.ofBits_def (φ := .f32) 0xFF800000#32) (kerMax_col v h hφ hacc q))

/-- A sum over the columns, read at row `p`. -/
theorem rowSum_apply (x : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 x 0x00000000#32 h hφ hacc (ix1 p) = ∑ q : Fin 1024, x (ix2 p q) :=
  (Ideal.multiReduction_add_single x _ h hφ hacc (ix1 p)).trans
    (Finset.sum_congr rfl fun k _ => congrArg x (lift_row h p k))

/-- A sum over the rows, read at column `q`. -/
theorem colSum_apply (x : FVec Ideal S1024x1024 .f32) (h : S1024x1024.Reduces [0] S1024) (hφ : FKind.Formats .f32)
    (hacc : (0x00000000#32 : BitVec 32) = FKind.add.neutral .f32 hφ) (q : Fin 1024) :
    multiReduction (F := Ideal) .add [0] S1024 x 0x00000000#32 h hφ hacc (ix1 q) = ∑ p : Fin 1024, x (ix2 p q) :=
  (Ideal.multiReduction_add_single x _ h hφ hacc (ix1 q)).trans
    (Finset.sum_congr rfl fun k _ => congrArg x (lift_col h q k))

/-- The sum over the rows kept as one row, then over that row's columns, kept as a 1 × 1 block: the double sum,
    columns outermost. -/
theorem total_apply (x : FVec Ideal S1024x1024 .f32) (h0 : S1024x1024.Reduces [0] S1024) (hc : S1024.ShapeCasts S1x1024)
    (h1 : S1x1024.Reduces [1] S1) (hc' : S1.ShapeCasts S1x1) (hφ : FKind.Formats .f32)
    (hacc : (0x00000000#32 : BitVec 32) = FKind.add.neutral .f32 hφ) (y : S1x1.Idx) :
    shapeCast S1x1 (multiReduction (F := Ideal) .add [1] S1
        (shapeCast S1x1024 (multiReduction (F := Ideal) .add [0] S1024 x 0x00000000#32 h0 hφ hacc) hc)
        0x00000000#32 h1 hφ hacc) hc' y
      = ∑ q : Fin 1024, ∑ p : Fin 1024, x (ix2 p q) := by
  rw [eq_ix2 y]
  refine (shapeCast_a_1a_apply _ hc' (y 0) (y 1)).trans ?_
  refine (Ideal.multiReduction_add_single _ _ h1 hφ hacc (ix1 (y 1))).trans ?_
  refine Finset.sum_congr rfl fun k _ => ?_
  refine (congrArg _ (lift_one h1 (y 1) k)).trans ?_
  refine (shapeCast_a_1a_apply _ hc (y 1) (⟨k.val, k.isLt⟩ : Fin 1024)).trans ?_
  exact colSum_apply x h0 hφ hacc _

/-! ## The kernel's values, stage by stage -/

/-- The exponential of a block, read at an index. -/
theorem exp_apply {s : Shape} {φ : FTy} (x : FVec Ideal s φ) (i : s.Idx) : exp x i = Ideal.exp (x i) := rfl

section Stages
variable (v : FVec Ideal S1024x1024 .f32)

/-- The row maxima. -/
def kRowMax : FVec Ideal S1024 .f32 :=
  maximumf (broadcast S1024 (Scalar.ofBits (F := Ideal) .f32 0xFF800000#32))
    (multiReduction (F := Ideal) .maximumf [1] S1024 v 0xFF800000#32 reduces_S1024x1024_S1024 (.inl rfl) rfl)

/-- The row softmax's numerators. -/
def kRowW : FVec Ideal S1024x1024 .f32 :=
  exp (subf v (broadcastTo S1024x1024 (shapeCast S1024x1 (kRowMax v) shapeCasts_S1024_S1024x1) broadcasts_S1024x1_S1024x1024))

/-- The row softmax's denominators. -/
def kRowSum : FVec Ideal S1024 .f32 :=
  multiReduction (F := Ideal) .add [1] S1024 (kRowW v) 0x00000000#32 reduces_S1024x1024_S1024 (.inl rfl) rfl

/-- The softmax along each row. -/
def kRowSoft : FVec Ideal S1024x1024 .f32 :=
  divf (kRowW v) (broadcastTo S1024x1024 (shapeCast S1024x1 (kRowSum v) shapeCasts_S1024_S1024x1) broadcasts_S1024x1_S1024x1024)

/-- The column maxima. -/
def kColMax : FVec Ideal S1024 .f32 :=
  maximumf (broadcast S1024 (Scalar.ofBits (F := Ideal) .f32 0xFF800000#32))
    (multiReduction (F := Ideal) .maximumf [0] S1024 v 0xFF800000#32 reduces_S1024x1024_S1024_2 (.inl rfl) rfl)

/-- The column softmax's numerators. -/
def kColW : FVec Ideal S1024x1024 .f32 :=
  exp (subf v (broadcastTo S1024x1024 (shapeCast S1x1024 (kColMax v) shapeCasts_S1024_S1x1024) broadcasts_S1x1024_S1024x1024))

/-- The column softmax's denominators. -/
def kColSum : FVec Ideal S1024 .f32 :=
  multiReduction (F := Ideal) .add [0] S1024 (kColW v) 0x00000000#32 reduces_S1024x1024_S1024_2 (.inl rfl) rfl

/-- The softmax along each column. -/
def kColSoft : FVec Ideal S1024x1024 .f32 :=
  divf (kColW v) (broadcastTo S1024x1024 (shapeCast S1x1024 (kColSum v) shapeCasts_S1024_S1x1024) broadcasts_S1x1024_S1024x1024)

/-- The soft union a + b − a·b of the two softmaxes. -/
def kUnion : FVec Ideal S1024x1024 .f32 :=
  subf (addf (kRowSoft v) (kColSoft v)) (mulf (kRowSoft v) (kColSoft v))

/-- The sum of a block over its rows, then over its columns, kept as a 1 × 1 block. -/
def kTotal (x : FVec Ideal S1024x1024 .f32) : FVec Ideal S1x1 .f32 :=
  shapeCast S1x1 (multiReduction (F := Ideal) .add [1] S1
    (shapeCast S1x1024 (multiReduction (F := Ideal) .add [0] S1024 x 0x00000000#32 reduces_S1024x1024_S1024_2 (.inl rfl) rfl)
      shapeCasts_S1024_S1x1024)
    0x00000000#32 reduces_S1x1024_S1 (.inl rfl) rfl) shapeCasts_S1_S1x1

/-- The union-weighted mean. -/
def kPay : FVec Ideal S1x1 .f32 :=
  divf (kTotal (mulf (kUnion v) v)) (kTotal (kUnion v))

theorem kRowMax_apply (p : Fin 1024) : kRowMax v (ix1 p) = rowMax (matOf v) p :=
  rowMax_apply v _ _ _ p

theorem kColMax_apply (q : Fin 1024) : kColMax v (ix1 q) = colMax (matOf v) q :=
  colMax_apply v _ _ _ q

theorem kRowW_apply (p q : Fin 1024) : kRowW v (ix2 p q) = rowW (matOf v) p q := by
  unfold kRowW rowW
  refine (exp_apply _ _).trans (congrArg Ideal.exp ?_)
  refine (subf_apply _ _ _).trans ?_
  exact congrArg (fun m => v (ix2 p q) - m) ((keepCol_apply _ _ _ p q).trans (kRowMax_apply v p))

theorem kColW_apply (p q : Fin 1024) : kColW v (ix2 p q) = colW (matOf v) p q := by
  unfold kColW colW
  refine (exp_apply _ _).trans (congrArg Ideal.exp ?_)
  refine (subf_apply _ _ _).trans ?_
  exact congrArg (fun m => v (ix2 p q) - m) ((keepRow_apply _ _ _ p q).trans (kColMax_apply v q))

theorem kRowSum_apply (p : Fin 1024) : kRowSum v (ix1 p) = ∑ q' : Fin 1024, rowW (matOf v) p q' :=
  (rowSum_apply (kRowW v) _ _ _ p).trans (Finset.sum_congr rfl fun q' _ => kRowW_apply v p q')

theorem kColSum_apply (q : Fin 1024) : kColSum v (ix1 q) = ∑ p' : Fin 1024, colW (matOf v) p' q :=
  (colSum_apply (kColW v) _ _ _ q).trans (Finset.sum_congr rfl fun p' _ => kColW_apply v p' q)

theorem kRowSoft_apply (p q : Fin 1024) : kRowSoft v (ix2 p q) = rowSoft (matOf v) p q := by
  unfold kRowSoft rowSoft
  refine (divf_apply _ _ _).trans ?_
  exact congrArg₂ Ideal.div (kRowW_apply v p q) ((keepCol_apply _ _ _ p q).trans (kRowSum_apply v p))

theorem kColSoft_apply (p q : Fin 1024) : kColSoft v (ix2 p q) = colSoft (matOf v) p q := by
  unfold kColSoft colSoft
  refine (divf_apply _ _ _).trans ?_
  exact congrArg₂ Ideal.div (kColW_apply v p q) ((keepRow_apply _ _ _ p q).trans (kColSum_apply v q))

theorem kUnion_apply (p q : Fin 1024) : kUnion v (ix2 p q) = union (matOf v) p q := by
  unfold kUnion union
  rw [subf_apply, addf_apply, mulf_apply, kRowSoft_apply, kColSoft_apply]

theorem kTotal_apply (x : FVec Ideal S1024x1024 .f32) (y : S1x1.Idx) :
    kTotal x y = ∑ q : Fin 1024, ∑ p : Fin 1024, x (ix2 p q) :=
  total_apply x _ _ _ _ _ _ y

theorem kPay_apply (y : S1x1.Idx) : kPay v y = score (matOf v) := by
  unfold kPay score
  refine (divf_apply _ _ _).trans (congrArg₂ Ideal.div ?_ ?_)
  · refine (kTotal_apply _ y).trans ?_
    refine Finset.sum_congr rfl fun q _ => Finset.sum_congr rfl fun p _ => ?_
    rw [mulf_apply, kUnion_apply]
  · refine (kTotal_apply _ y).trans ?_
    exact Finset.sum_congr rfl fun q _ => Finset.sum_congr rfl fun p _ => kUnion_apply v p q

end Stages

/-! ## The payload -/

/-- The payload is the stages composed, at the loaded block cast to its own shape. -/
theorem pay_stages (v0 : Vec Ideal S1024x1024 .f32) :
    k1_pay1 (F := Ideal) v0 = kPay (shapeCast S1024x1024 v0 shapeCasts_S1024x1024_S1024x1024) := rfl

/-- The second kernel's body computes the specification's score of its input matrix. -/
theorem pay_eq (v0 : Vec Ideal S1024x1024 .f32) (y : S1x1.Idx) :
    k1_pay1 (F := Ideal) v0 y = score (fun p q => v0 (ix2 p q)) := by
  rw [pay_stages, shapeCast_self]
  exact kPay_apply v0 y

end Cert.KernelIdeal.Combine

end
-- ==== Proof.KernelValue.lean ====
/-
  The idealized kernel program computes the specification's result.

  Its result buffer ends at the second kernel's arithmetic of the first kernel's result array, reshaped to a scalar; the
  first kernel's array is the negated L1 distance matrix of the two inputs, and the second kernel's arithmetic of a
  matrix is the union-weighted mean of its softmax alignments. So the result is the specification's function of the two
  argument arrays, and every weakly fair execution ends with it in the result buffer and the arguments unchanged.
-/
import proofs.«118307_j8830452760775_2_alg».proof.Proof.KernelRun
import proofs.«118307_j8830452760775_2_alg».proof.Proof.DistBlocks
import proofs.«118307_j8830452760775_2_alg».proof.Proof.Tail
import proofs.«118307_j8830452760775_2_alg».proof.Proof.Combine

noncomputable section

namespace Cert.KernelIdeal.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- What the last segment boundary holds at the result buffer: the specification's result of the argument arrays. -/
theorem result_eq (c : Dev nD) : W4 m ρ c (Proc.devRef .tc main_v6)
    = fun _ => Cert.Align.result (m ((c : Thread nD τ).loc main_arg0)) (m ((c : Thread nD τ).loc main_arg1)) := by
  funext i
  rw [Tail.result_buf, Tail.scalar_apply, Combine.pay_eq, DistBlk.final]
  rfl

/-- The run, read: the result buffer at the specification's result, the arguments unchanged. -/
theorem run : θ_run defs (onTc (τ := τ) (main (F := Ideal))) ⟨m, fun _ => 0, ρ⟩ (fun r => ∀ c : Dev nD,
      r.2.mem ((c : Thread nD τ).loc main_v6)
        = (fun _ => Cert.Align.result (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (result_eq m ρ c), (h c).2⟩) (KVal.run_named m ρ)

end Cert.KernelIdeal.KValue

end
-- ==== Proof.RefValue.lean ====
/-
  The reference program computes the specification's result.

  The program builds the matrix of negated L1 distances between the tokens of its two arguments, takes a softmax of it
  along every row and along every column, joins the two as a + b − a·b, and returns the mean of the distances weighted by
  that union. Read one operation at a time, every intermediate array is, entry by entry, the corresponding matrix of the
  specification: first the distance matrix, then everything computed from it.
-/
import proofs.«118307_j8830452760775_2_alg».proof.Proof.Gen.ReferenceIdeal.Read
import proofs.«118307_j8830452760775_2_alg».proof.Proof.Spec
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Align

/-! ## The distance matrix -/

/-- Entry (p, q, k) of the broadcast first argument is read from the argument at (0, k, p): the reshape drops the unit
    axis, the transpose swaps feature and token, and the two broadcasts ignore q. -/
theorem idx_left (p q : Fin 1024) (k : Fin 256) :
    idx_main_v0 (idx_main_v1 (idx_main_v4 (idx_main_v6 (idx_main_v10 (ix2 p q) k)))) = ix3 (0 : Fin 1) k p := by
  funext a
  match a with
  | ⟨0, _⟩ => rfl
  | ⟨1, _⟩ =>
    apply Fin.ext
    show (k.val * 1024 + p.val) / 1024 % 256 = k.val
    have := k.isLt; have := p.isLt; omega
  | ⟨2, _⟩ =>
    apply Fin.ext
    show (k.val * 1024 + p.val) % 1024 = p.val
    have := p.isLt; omega

/-- Entry (p, q, k) of the broadcast second argument is read from the argument at (0, k, q). -/
theorem idx_right (p q : Fin 1024) (k : Fin 256) :
    idx_main_v2 (idx_main_v3 (idx_main_v5 (idx_main_v7 (idx_main_v10 (ix2 p q) k)))) = ix3 (0 : Fin 1) k q := by
  funext a
  match a with
  | ⟨0, _⟩ => rfl
  | ⟨1, _⟩ =>
    apply Fin.ext
    show (k.val * 1024 + q.val) / 1024 % 256 = k.val
    have := k.isLt; have := q.isLt; omega
  | ⟨2, _⟩ =>
    apply Fin.ext
    show (k.val * 1024 + q.val) % 1024 = q.val
    have := q.isLt; omega

/-- The negated sum over the features of the absolute differences is the specification's distance. -/
theorem dist_eq (x0 x1 : SIn.Idx → EReal) (p q : Fin 1024) :
    val_main_v11 (F := Ideal) x0 x1 (ix2 p q) = Cert.Align.dist x0 x1 p q := by
  rw [val_main_v11_apply, val_main_v10_apply]
  show -(Ideal.ofBits .f32 0x00000000#32 + ∑ k : Fin 256, val_main_v9 (F := Ideal) x0 x1 (idx_main_v10 (ix2 p q) k)) = _
  rw [Ideal.ofBits_zero_f32, zero_add]
  unfold Cert.Align.dist
  refine congrArg Neg.neg (Finset.sum_congr rfl fun k _ => ?_)
  rw [val_main_v9_apply, val_main_v8_apply, val_main_v6_apply, val_main_v4_apply, val_main_v1_apply, val_main_v0_apply,
    val_main_v7_apply, val_main_v5_apply, val_main_v3_apply, val_main_v2_apply, idx_left, idx_right]
  rfl

/-! ## Everything computed from the distance matrix -/

/-- The distance matrix as the program holds it. -/
abbrev sm (x0 x1 : SIn.Idx → EReal) : Mat := fun p q => val_main_v11 (F := Ideal) x0 x1 (ix2 p q)

/-- Row p with column k put back is (p, k). -/
theorem lift_row (h : S1024x1024.Reduces [1] S1024) (p : Fin 1024) (k : Fin (S1024x1024.size 1)) :
    h.lift (ix1 p) k = ix2 p (⟨k.val, k.isLt⟩ : Fin 1024) := by
  funext c; apply Fin.ext
  fin_cases c <;> rfl

/-- Column q with row k put back is (k, q). -/
theorem lift_col (h : S1024x1024.Reduces [0] S1024) (q : Fin 1024) (k : Fin (S1024x1024.size 0)) :
    h.lift (ix1 q) k = ix2 (⟨k.val, k.isLt⟩ : Fin 1024) q := by
  funext c; apply Fin.ext
  fin_cases c <;> rfl

/-- A maximum reduction along the rows, from −∞, is at p the fold of max over row p. -/
theorem hostMax_row (y : FVec Ideal S1024x1024 .f32) (p : Fin 1024) :
    Host.reduce (FloatOps.maximumf (F := Ideal) (φ := .f32)) y (constant (F := Ideal) S_ .f32 0xFF800000#32)
        reducesTo_S1024x1024_S1024_d1 h_S_ (ix1 p)
      = (Finset.univ : Finset (Fin 1024)).fold max negInf (fun q => y (ix2 p q)) := by
  have h : S1024x1024.Reduces [1] S1024 := by decide
  refine (Host.reduce_eq_fold_single FloatOps.maximumf y _ reducesTo_S1024x1024_S1024_d1 h h_S_ (ix1 p)).trans ?_
  have hf : (y ∘ h.lift (ix1 p)) = fun k : Fin 1024 => y (ix2 p k) := funext fun k => congrArg y (lift_row h p k)
  exact congrArg (fun f => Finset.fold max negInf f (Finset.univ : Finset (Fin 1024))) hf

/-- A maximum reduction along the columns, from −∞, is at q the fold of max over column q. -/
theorem hostMax_col (y : FVec Ideal S1024x1024 .f32) (q : Fin 1024) :
    Host.reduce (FloatOps.maximumf (F := Ideal) (φ := .f32)) y (constant (F := Ideal) S_ .f32 0xFF800000#32)
        reducesTo_S1024x1024_S1024_d0 h_S_ (ix1 q)
      = (Finset.univ : Finset (Fin 1024)).fold max negInf (fun p => y (ix2 p q)) := by
  have h : S1024x1024.Reduces [0] S1024 := by decide
  refine (Host.reduce_eq_fold_single FloatOps.maximumf y _ reducesTo_S1024x1024_S1024_d0 h h_S_ (ix1 q)).trans ?_
  have hf : (y ∘ h.lift (ix1 q)) = fun k : Fin 1024 => y (ix2 k q) := funext fun k => congrArg y (lift_col h q k)
  exact congrArg (fun f => Finset.fold max negInf f (Finset.univ : Finset (Fin 1024))) hf

/-! ### Along the rows -/

theorem rowMax_eq (x0 x1 : SIn.Idx → EReal) (p : Fin 1024) :
    val_main_v14 (F := Ideal) x0 x1 (ix1 p) = rowMax (sm x0 x1) p := by
  rw [val_main_v14_apply, val_main_v13_apply]
  unfold val_main_v12
  exact congrArg (max negInf) (hostMax_row (val_main_v11 (F := Ideal) x0 x1) p)

theorem v16_eq (x0 x1 : SIn.Idx → EReal) (p q : Fin 1024) :
    val_main_v16 (F := Ideal) x0 x1 (ix2 p q) = rowMax (sm x0 x1) p := by
  rw [val_main_v16_apply, val_main_v15_apply]
  have e : idx_main_v15 (idx_main_v16 (ix2 p q)) = ix1 p := by
    funext a; match a with | ⟨0, _⟩ => rfl
  rw [e]; exact rowMax_eq x0 x1 p

theorem rowW_eq (x0 x1 : SIn.Idx → EReal) (p q : Fin 1024) :
    val_main_v18 (F := Ideal) x0 x1 (ix2 p q) = rowW (sm x0 x1) p q := by
  rw [val_main_v18_apply, val_main_v17_apply, v16_eq]; rfl

theorem rowSum_eq (x0 x1 : SIn.Idx → EReal) (p : Fin 1024) :
    val_main_v19 (F := Ideal) x0 x1 (ix1 p) = ∑ q' : Fin 1024, rowW (sm x0 x1) p q' := by
  rw [val_main_v19_apply]
  show Ideal.ofBits .f32 0x00000000#32 + ∑ k : Fin 1024, val_main_v18 (F := Ideal) x0 x1 (idx_main_v19 (ix1 p) k) = _
  rw [Ideal.ofBits_zero_f32, zero_add]
  refine Finset.sum_congr rfl fun k _ => ?_
  have e : idx_main_v19 (ix1 p) k = ix2 p k := by
    funext a; match a with | ⟨0, _⟩ => rfl | ⟨1, _⟩ => rfl
  rw [e]; exact rowW_eq x0 x1 p k

theorem v21_eq (x0 x1 : SIn.Idx → EReal) (p q : Fin 1024) :
    val_main_v21 (F := Ideal) x0 x1 (ix2 p q) = ∑ q' : Fin 1024, rowW (sm x0 x1) p q' := by
  rw [val_main_v21_apply, val_main_v20_apply]
  have e : idx_main_v20 (idx_main_v21 (ix2 p q)) = ix1 p := by
    funext a; match a with | ⟨0, _⟩ => rfl
  rw [e]; exact rowSum_eq x0 x1 p

theorem rowSoft_eq (x0 x1 : SIn.Idx → EReal) (p q : Fin 1024) :
    val_main_v22 (F := Ideal) x0 x1 (ix2 p q) = rowSoft (sm x0 x1) p q := by
  rw [val_main_v22_apply, rowW_eq, v21_eq]; rfl

/-! ### Along the columns -/

theorem colMax_eq (x0 x1 : SIn.Idx → EReal) (q : Fin 1024) :
    val_main_v25 (F := Ideal) x0 x1 (ix1 q) = colMax (sm x0 x1) q := by
  rw [val_main_v25_apply, val_main_v24_apply]
  unfold val_main_v23
  exact congrArg (max negInf) (hostMax_col (val_main_v11 (F := Ideal) x0 x1) q)

theorem v27_eq (x0 x1 : SIn.Idx → EReal) (p q : Fin 1024) :
    val_main_v27 (F := Ideal) x0 x1 (ix2 p q) = colMax (sm x0 x1) q := by
  rw [val_main_v27_apply, val_main_v26_apply]
  have e : idx_main_v26 (idx_main_v27 (ix2 p q)) = ix1 q := by
    funext a; match a with | ⟨0, _⟩ => rfl
  rw [e]; exact colMax_eq x0 x1 q

theorem colW_eq (x0 x1 : SIn.Idx → EReal) (p q : Fin 1024) :
    val_main_v29 (F := Ideal) x0 x1 (ix2 p q) = colW (sm x0 x1) p q := by
  rw [val_main_v29_apply, val_main_v28_apply, v27_eq]; rfl

theorem colSum_eq (x0 x1 : SIn.Idx → EReal) (q : Fin 1024) :
    val_main_v30 (F := Ideal) x0 x1 (ix1 q) = ∑ p' : Fin 1024, colW (sm x0 x1) p' q := by
  rw [val_main_v30_apply]
  show Ideal.ofBits .f32 0x00000000#32 + ∑ k : Fin 1024, val_main_v29 (F := Ideal) x0 x1 (idx_main_v30 (ix1 q) k) = _
  rw [Ideal.ofBits_zero_f32, zero_add]
  refine Finset.sum_congr rfl fun k _ => ?_
  have e : idx_main_v30 (ix1 q) k = ix2 k q := by
    funext a; match a with | ⟨0, _⟩ => rfl | ⟨1, _⟩ => rfl
  rw [e]; exact colW_eq x0 x1 k q

theorem v32_eq (x0 x1 : SIn.Idx → EReal) (p q : Fin 1024) :
    val_main_v32 (F := Ideal) x0 x1 (ix2 p q) = ∑ p' : Fin 1024, colW (sm x0 x1) p' q := by
  rw [val_main_v32_apply, val_main_v31_apply]
  have e : idx_main_v31 (idx_main_v32 (ix2 p q)) = ix1 q := by
    funext a; match a with | ⟨0, _⟩ => rfl
  rw [e]; exact colSum_eq x0 x1 q

theorem colSoft_eq (x0 x1 : SIn.Idx → EReal) (p q : Fin 1024) :
    val_main_v33 (F := Ideal) x0 x1 (ix2 p q) = colSoft (sm x0 x1) p q := by
  rw [val_main_v33_apply, colW_eq, v32_eq]; rfl

/-! ### The union and the weighted mean -/

theorem union_eq (x0 x1 : SIn.Idx → EReal) (p q : Fin 1024) :
    val_main_v36 (F := Ideal) x0 x1 (ix2 p q) = union (sm x0 x1) p q := by
  rw [val_main_v36_apply, val_main_v34_apply, val_main_v35_apply, rowSoft_eq, colSoft_eq]; rfl

theorem v37_eq (x0 x1 : SIn.Idx → EReal) (p q : Fin 1024) :
    val_main_v37 (F := Ideal) x0 x1 (ix2 p q) = union (sm x0 x1) p q * sm x0 x1 p q := by
  rw [val_main_v37_apply, union_eq]; rfl

/-- The numerator: the total of union · distance, as a sum over columns of sums over rows. -/
theorem num_eq (x0 x1 : SIn.Idx → EReal) (i : S_.Idx) :
    val_main_v38 (F := Ideal) x0 x1 i = ∑ q : Fin 1024, ∑ p : Fin 1024, union (sm x0 x1) p q * sm x0 x1 p q := by
  rw [val_main_v38_apply]
  show Ideal.ofBits .f32 0x00000000#32 + ∑ j : S1024x1024.Idx, val_main_v37 (F := Ideal) x0 x1 j = _
  rw [Ideal.ofBits_zero_f32, zero_add, sum_idx2, Finset.sum_comm]
  exact Finset.sum_congr rfl fun q _ => Finset.sum_congr rfl fun p _ => v37_eq x0 x1 p q

/-- The denominator: the total of the union. -/
theorem den_eq (x0 x1 : SIn.Idx → EReal) (i : S_.Idx) :
    val_main_v39 (F := Ideal) x0 x1 i = ∑ q : Fin 1024, ∑ p : Fin 1024, union (sm x0 x1) p q := by
  rw [val_main_v39_apply]
  show Ideal.ofBits .f32 0x00000000#32 + ∑ j : S1024x1024.Idx, val_main_v36 (F := Ideal) x0 x1 j = _
  rw [Ideal.ofBits_zero_f32, zero_add, sum_idx2, Finset.sum_comm]
  exact Finset.sum_congr rfl fun q _ => Finset.sum_congr rfl fun p _ => union_eq x0 x1 p q

/-- The program's result is the score of the distance matrix it built. -/
theorem score_eq (x0 x1 : SIn.Idx → EReal) (i : S_.Idx) :
    val_main_v40 (F := Ideal) x0 x1 i = score (fun p q => val_main_v11 (F := Ideal) x0 x1 (ix2 p q)) := by
  rw [val_main_v40_apply, num_eq, den_eq]; rfl

/-- The reference program's result is the specification's. -/
theorem result_eq (x0 x1 : SIn.Idx → EReal) : val_main_v40 (F := Ideal) x0 x1 = fun _ => result x0 x1 := by
  funext i
  rw [score_eq]
  unfold result
  exact congrArg score (funext fun p => funext fun q => dist_eq x0 x1 p q)

end Cert.ReferenceIdeal.RefValue

end
-- ==== Proof.lean ====
/-
  A soft-alignment score of two token sequences, computed by two kernels, against its plain reference.

  Inputs: two arrays of shape [1, 256, 1024] (256 features of 1024 tokens each). Both programs form the 1024 × 1024
  matrix s of negated L1 distances between tokens, the softmax a of s along rows and the softmax b along columns, the
  soft union u = (a + b) − a·b, and return (∑ u·s) / (∑ u).

  The kernel program lays the inputs out as [1024, 256] matrices, computes s with a first kernel over an 8 × 8 × 2 grid
  — output tile (ni, mi) accumulated over two halves of the 256 features, the accumulator reset at the first half —
  and everything else with a second kernel at one grid point; the reference does the same with whole-array operations.
  Over the extended reals the two agree: the two accumulated halves are the negated whole sum because each half is a sum
  of absolute values, never −∞, so negation distributes over their sum (Proof/Spec.lean); the maxima, exponentials,
  quotients and sums that follow are the same operations on both sides, and a sum over all entries of a matrix is the sum
  over columns of the sums down each column. No finiteness of the inputs is used.

  The frames of the two kernel programs are the generated ones; the reference's frame is its generated run with the
  result dropped; nothing was rewritten by the ideal pass, so preservation holds trivially.
-/
import proofs.«118307_j8830452760775_2_alg».proof.Defs
import proofs.«118307_j8830452760775_2_alg».proof.Proof.Gen.Kernel
import proofs.«118307_j8830452760775_2_alg».proof.Proof.Gen.Kernel.Frame
import proofs.«118307_j8830452760775_2_alg».proof.Proof.Gen.KernelIdeal
import proofs.«118307_j8830452760775_2_alg».proof.Proof.Gen.KernelIdeal.Frame
import proofs.«118307_j8830452760775_2_alg».proof.Proof.Gen.ReferenceIdeal
import proofs.«118307_j8830452760775_2_alg».proof.Proof.Gen.ReferenceIdeal.Run
import proofs.«118307_j8830452760775_2_alg».proof.Proof.Gen.ReferenceIdeal.Read
import proofs.«118307_j8830452760775_2_alg».proof.Proof.Gen.Pre_finite_inputs
import proofs.«118307_j8830452760775_2_alg».proof.Proof.KernelValue
import proofs.«118307_j8830452760775_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals both programs end with the specification's result of the (agreeing) argument arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
